-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x5000x64 : Shape := ⟨3, ![4, 5000, 64]⟩
abbrev S4x96x64 : Shape := ⟨3, ![4, 96, 64]⟩
abbrev S_ : Shape := ⟨0, ![]⟩

class Facts : Prop where
  bcast_S_S4x5000x64 : S_.BroadcastsInDim S4x5000x64 (![] : Fin 0 → Fin S4x5000x64.rank)
  reducesTo_S4x5000x64_S_d0_1_2 : S4x5000x64.ReducesTo [0, 1, 2] S_
  h_S_ : 0 < S_.numel
  bcast_S_S4x96x64 : S_.BroadcastsInDim S4x96x64 (![] : Fin 0 → Fin S4x96x64.rank)
  reducesTo_S4x96x64_S_d0_1_2 : S4x96x64.ReducesTo [0, 1, 2] S_

variable [Facts]

def fn {F : FTy → Type} [FloatOps F] (main_arg0 : FVec F S4x5000x64 .f32) (main_arg1 : FVec F S4x96x64 .f32) : IVec S_ 1 :=
  let main_v0 : FVec F S4x5000x64 .f32 := Host.absf main_arg0
  let main_cst : FVec F S_ .f32 := constant S_ .f32 0x7F800000#32
  let main_v1 : FVec F S4x5000x64 .f32 := broadcastInDim S4x5000x64 ![] bcast_S_S4x5000x64 main_cst
  let main_v2 : IVec S4x5000x64 1 := cmpf .olt main_v0 main_v1
  let main_c : IVec S_ 1 := constantI S_ 1 1#1
  let main_v3 : IVec S_ 1 := (fun x v => Host.reduce IntOp.andi x v reducesTo_S4x5000x64_S_d0_1_2 h_S_) main_v2 main_c
  let main_v4 : FVec F S4x96x64 .f32 := Host.absf main_arg1
  let main_cst_0 : FVec F S_ .f32 := constant S_ .f32 0x7F800000#32
  let main_v5 : FVec F S4x96x64 .f32 := broadcastInDim S4x96x64 ![] bcast_S_S4x96x64 main_cst_0
  let main_v6 : IVec S4x96x64 1 := cmpf .olt main_v4 main_v5
  let main_c_1 : IVec S_ 1 := constantI S_ 1 1#1
  let main_v7 : IVec S_ 1 := (fun x v => Host.reduce IntOp.andi x v reducesTo_S4x96x64_S_d0_1_2 h_S_) main_v6 main_c_1
  let main_v8 : IVec S_ 1 := andi main_v3 main_v7
  main_v8
-- ==== Kernel.lean ====
abbrev S4x5000x64 : Shape := ⟨3, ![4, 5000, 64]⟩
abbrev S4x96x64 : Shape := ⟨3, ![4, 96, 64]⟩
abbrev S4x5096x64 : Shape := ⟨3, ![4, 5096, 64]⟩
abbrev S_ : Shape := ⟨0, ![]⟩
abbrev S4x5120x64 : Shape := ⟨3, ![4, 5120, 64]⟩
abbrev S4x5096x5096 : Shape := ⟨3, ![4, 5096, 5096]⟩
abbrev S1x1280x64 : Shape := ⟨3, ![1, 1280, 64]⟩
abbrev S1x1280x1280 : Shape := ⟨3, ![1, 1280, 1280]⟩
abbrev S1280x64 : Shape := ⟨2, ![1280, 64]⟩
abbrev S1280x1280 : Shape := ⟨2, ![1280, 1280]⟩
abbrev S1280x1 : Shape := ⟨2, ![1280, 1]⟩
abbrev S1x1280 : Shape := ⟨2, ![1, 1280]⟩

abbrev nBuf : Space → Nat
  | .hbm => 7
  | .vmem => 6
  | .smem => 0
  | _ => 0

abbrev bufTy : (tb : Table) → Fin (tcTables nBuf tb) → BufTy
  | .hbm, ⟨0, _⟩ => ⟨S4x5000x64, .f32⟩
  | .hbm, ⟨1, _⟩ => ⟨S4x96x64, .f32⟩
  | .hbm, ⟨2, _⟩ => ⟨S4x5096x64, .f32⟩
  | .hbm, ⟨3, _⟩ => ⟨S_, .i32⟩
  | .hbm, ⟨4, _⟩ => ⟨S_, .f32⟩
  | .hbm, ⟨5, _⟩ => ⟨S4x5120x64, .f32⟩
  | .hbm, ⟨6, _⟩ => ⟨S4x5096x5096, .f32⟩
  | .local _ .vmem, ⟨0, _⟩ => ⟨S1x1280x64, .f32⟩
  | .local _ .vmem, ⟨1, _⟩ => ⟨S1x1280x64, .f32⟩
  | .local _ .vmem, ⟨2, _⟩ => ⟨S1x1280x64, .f32⟩
  | .local _ .vmem, ⟨3, _⟩ => ⟨S1x1280x64, .f32⟩
  | .local _ .vmem, ⟨4, _⟩ => ⟨S1x1280x1280, .f32⟩
  | .local _ .vmem, ⟨5, _⟩ => ⟨S1x1280x1280, .f32⟩
  | _, _ => ⟨S4x5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1280x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1280x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1280x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  concatenates_S4x5000x64_S4x96x64_S4x5096x64_d1 : Shape.Concatenates [S4x5000x64, S4x96x64] S4x5096x64 1
  pads_S4x5096x64_S4x5120x64_000_0240_000 : S4x5096x64.Pads (![0, 0, 0] : Fin 3 → Nat) ![0, 24, 0] ![0, 0, 0] S4x5120x64
  h_S_ : 0 < S_.numel
  inb_S1x1280x64_S1x1280x64_0_0_0 : ∀ a, (![0, 0, 0] : Fin 3 → Nat) a + S1x1280x64.size a ≤ S1x1280x64.size a
  h_S1x1280x64 : 0 < S1x1280x64.numel
  shapeCasts_S1x1280x64_S1280x64 : S1x1280x64.ShapeCasts S1280x64
  iota_S1280x1_d0_w32 : S1280x1.Iotas .tc 32 [0]
  iota_S1x1280_d1_w32 : S1x1280.Iotas .tc 32 [1]
  broadcasts_S1280x1_S1280x1280 : S1280x1.Broadcasts S1280x1280
  broadcasts_S1x1280_S1280x1280 : S1x1280.Broadcasts S1280x1280
  natLt_1_32 : 1 < 32
  inb_S1x1280x1280_S1x1280x1280_0_0_0 : ∀ a, (![0, 0, 0] : Fin 3 → Nat) a + S1x1280x1280.size a ≤ S1x1280x1280.size a
  h_S1x1280x1280 : 0 < S1x1280x1280.numel
  shapeCasts_S1x1280x1280_S1280x1280 : S1x1280x1280.ShapeCasts S1280x1280
  shapeCasts_S1280x1280_S1x1280x1280 : S1280x1280.ShapeCasts S1x1280x1280
  dot_S1280x64_S1280x64_S1280x1280_1_1_0_0_n_n_wf : DotDims.WF S1280x64 S1280x64 S1280x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280x64.size a ≤ S4x5120x64.size a
  hwx0_0 : ∀ i : grid0.Coords, EltTy.bits .f32 = 32 ∨ (Rect.block (s := S4x5120x64) S1x1280x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x64.size a ≤ S4x5120x64.size a
  hwx0_1 : ∀ i : grid0.Coords, EltTy.bits .f32 = 32 ∨ (Rect.block (s := S4x5120x64) S1x1280x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1280x1280.size a < S4x5096x5096.size a
  hwx0_2 : ∀ i : grid0.Coords, EltTy.bits .f32 = 32 ∨ (Rect.unit (s := S4x5096x5096) (fun a => cc0_transform_2 i a * S1x1280x1280.size a) (fun a => (Pipeline.Clip.of (cc0_transform_2 i a) (S1x1280x1280.size a) (S4x5096x5096.size a)).extent (S1x1280x1280.size a)) fun a => Pipeline.Clip.inb (Pipeline.Clip.ok_of (hstart0_2 i a))).WholeWords (EltTy.packing .f32)
  hwxs0_2 : ∀ i : grid0.Coords, EltTy.bits .f32 = 32 ∨ (Rect.unit (s := S1x1280x1280) (fun _ => 0) (fun a => (Pipeline.Clip.of (cc0_transform_2 i a) (S1x1280x1280.size a) (S4x5096x5096.size a)).extent (S1x1280x1280.size a)) fun a => (Nat.zero_add _).trans_le (Pipeline.Clip.extent_le (Pipeline.Clip.ok_of (hstart0_2 i a)))).WholeWords (EltTy.packing .f32)

variable [Facts₀]

def dot_S1280x64_S1280x64_S1280x1280_1_1_0_0_n_n : DotDims S1280x64 S1280x64 S1280x1280 where
  lhsContracting := [1]
  rhsContracting := [1]
  lhsNonContracting := [0]
  rhsNonContracting := [0]
  lhsBatch := []
  rhsBatch := []
  wf := dot_S1280x64_S1280x64_S1280x1280_1_1_0_0_n_n_wf

abbrev win0_0 : Pipeline.Window sig grid0 :=
  Pipeline.Window.ofSpec (Memref.whole main_v1) S1x1280x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S1x1280x1280.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x5000x64 : Shape := ⟨3, ![4, 5000, 64]⟩
abbrev S4x96x64 : Shape := ⟨3, ![4, 96, 64]⟩
abbrev S4x5096x64 : Shape := ⟨3, ![4, 5096, 64]⟩
abbrev S4x5096x5096 : Shape := ⟨3, ![4, 5096, 5096]⟩
abbrev S_ : Shape := ⟨0, ![]⟩
abbrev S5096x5096 : Shape := ⟨2, ![5096, 5096]⟩
abbrev S1x5096x5096 : Shape := ⟨3, ![1, 5096, 5096]⟩

abbrev nBuf : Space → Nat
  | .hbm => 18
  | .vmem => 0
  | .smem => 0
  | _ => 0

abbrev bufTy : (tb : Table) → Fin (tcTables nBuf tb) → BufTy
  | .hbm, ⟨0, _⟩ => ⟨S4x5000x64, .f32⟩
  | .hbm, ⟨1, _⟩ => ⟨S4x96x64, .f32⟩
  | .hbm, ⟨2, _⟩ => ⟨S4x5096x64, .f32⟩
  | .hbm, ⟨3, _⟩ => ⟨S4x5096x5096, .f32⟩
  | .hbm, ⟨4, _⟩ => ⟨S_, .f32⟩
  | .hbm, ⟨5, _⟩ => ⟨S4x5096x5096, .f32⟩
  | .hbm, ⟨6, _⟩ => ⟨S4x5096x5096, .f32⟩
  | .hbm, ⟨7, _⟩ => ⟨S5096x5096, .i32⟩
  | .hbm, ⟨8, _⟩ => ⟨S5096x5096, .i32⟩
  | .hbm, ⟨9, _⟩ => ⟨S_, .i32⟩
  | .hbm, ⟨10, _⟩ => ⟨S5096x5096, .i32⟩
  | .hbm, ⟨11, _⟩ => ⟨S5096x5096, .i32⟩
  | .hbm, ⟨12, _⟩ => ⟨S5096x5096, .i1⟩
  | .hbm, ⟨13, _⟩ => ⟨S5096x5096, .f32⟩
  | .hbm, ⟨14, _⟩ => ⟨S1x5096x5096, .f32⟩
  | .hbm, ⟨15, _⟩ => ⟨S4x5096x5096, .f32⟩
  | .hbm, ⟨16, _⟩ => ⟨S4x5096x5096, .f32⟩
  | .hbm, ⟨17, _⟩ => ⟨S4x5096x5096, .f32⟩
  | _, _ => ⟨S4x5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  concatenates_S4x5000x64_S4x96x64_S4x5096x64_d1 : Shape.Concatenates [S4x5000x64, S4x96x64] S4x5096x64 1
  bcast_S_S4x5096x5096 : S_.BroadcastsInDim S4x5096x5096 (![] : Fin 0 → Fin S4x5096x5096.rank)
  bcast_S_S5096x5096 : S_.BroadcastsInDim S5096x5096 (![] : Fin 0 → Fin S5096x5096.rank)
  bcast_S5096x5096_S1x5096x5096_1_2 : S5096x5096.BroadcastsInDim S1x5096x5096 (![1, 2] : Fin 2 → Fin S1x5096x5096.rank)
  bcast_S1x5096x5096_S4x5096x5096_0_1_2 : S1x5096x5096.BroadcastsInDim S4x5096x5096 (![0, 1, 2] : Fin 3 → Fin S4x5096x5096.rank)
  dot_S4x5096x64_S4x5096x64_S4x5096x5096_2_2_1_1_0_0_wf : DotDims.WF S4x5096x64 S4x5096x64 S4x5096x5096 [2] [2] [1] [1] [0] [0]

variable [Facts₀]

def dot_S4x5096x64_S4x5096x64_S4x5096x5096_2_2_1_1_0_0 : DotDims S4x5096x64 S4x5096x64 S4x5096x5096 where
  lhsContracting := [2]
  rhsContracting := [2]
  lhsNonContracting := [1]
  rhsNonContracting := [1]
  lhsBatch := [0]
  rhsBatch := [0]
  wf := dot_S4x5096x64_S4x5096x64_S4x5096x5096_2_2_1_1_0_0_wf

class Facts : Prop extends Facts₀ where

variable [Facts]
-- ==== Proof.FrameBits.lean ====
/-
  The run of the kernel's @main as printed (read at the word level), and what its result array holds afterwards.

  @main concatenates the two node arrays along the node axis (5000 + 96 = 5096 nodes per batch), pads the node axis
  with 24 zero rows to 5120, and hands the padded array TWICE to one kernel region over a 4 x 4 x 4 grid: at the point
  (b, i, j) the first window reads rows 1280 i .. 1280 i + 1279 of batch b, the second rows 1280 j .. 1280 j + 1279, and
  the body stores one 1280 x 1280 tile of the result, which is written back to rows 1280 i .., columns 1280 j .. of
  batch b of a 4 x 5096 x 5096 array — the last tile on either axis overhangs the array by 24 and is cut there.

  Both input windows sit on ONE array, so the array's points-to is split in two halves, one per window; the output
  window is the only writer of its array. What the body leaves in the output tile is named through the body's one
  payload; nothing else about the arithmetic is needed for the run.
-/
import proofs.«171163_j54829552501064_2_alg».proof.Proof.Gen.Kernel.Launch
import proofs.«171163_j54829552501064_2_alg».proof.Proof.Gen.Kernel.Skeleton
import proofs.«171163_j54829552501064_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: after the concatenation, the zero constant, its conversion and the
    padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those two lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the first node array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation writes the second node array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: unfetched, the block index
    has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The offsets of every access of the body are zero. -/
theorem hz3 : (![0, 0, 0] : Fin 3 → Nat) = fun _ => 0 := funext fun a => by fin_cases a <;> rfl

/-- What the body leaves in the output tile: its one payload of the two input blocks. -/
def tile (i : grid0.Coords) (x0 x1 : Vec F S1x1280x64 .f32) : Vec F S1x1280x1280 .f32 := k0_pay1 i x0 x1

set_option maxHeartbeats 1000000 in
/-- The body on whole staging memrefs: two whole loads, a dead whole load of the output tile, one whole store. -/
theorem sound_kernel (c : Dev nD) (E : Set ℕ) (i : grid0.Coords) (arg3 : Memref sig .tc .vmem S1x1280x64 .f32) (harg3 : arg3.IsWhole)
    (arg4 : Memref sig .tc .vmem S1x1280x64 .f32) (harg4 : arg4.IsWhole) (arg5 : Memref sig .tc .vmem S1x1280x1280 .f32) (harg5 : arg5.IsWhole)
    (x0 x1 : Vec F S1x1280x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tile i x0 x1)) -∗ K ⟨⟩))
      ⊢ wp frame (wpE (defs₀ (F := F)) Variants.none c none) E (cc0__stgraph_kernel i arg3 harg3 arg4 harg4 arg5 harg5) K := by
  simp only [cc0__stgraph_kernel_eq_skeleton]; unfold cc0__stgraph_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz3 inb_S1x1280x1280_S1x1280x1280_0_0_0 y⟩),
    View.canon_unit_zero hz3, View.readAt_eq_ld, View.readAt_eq_ld, View.ld_unit_zero hz3, View.ld_unit_zero hz3]
  rfl

/-! ## The proof data -/

/-- The arrays as the region finds them; after the body at point `t` each input's buffer still at its block and the
    output's at the tile of the two blocks; the padded array's points-to split in two halves, one per input window;
    no invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = tile (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]; · rw [after0_1]; iexact H1
  iexists (tile (grid0.coords t) (iblk m c 0 t) (iblk m c 1 t))
  rw [after0_2, Window.fill_cut]
  iexact H2

/-! ## The padded array's points-to, split between the two windows that read it -/

theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show (Finset.univ.image (Pipeline.arrRef spec0)) = {main_v1, main_v2} from by decide]
  rw [BI.bigSep_insert (by decide), BI.bigSep_singleton, bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  rw [e0, e2]
  show iprop((((c : Thread nD τ).loc main_v1) ↦{fullShare} V m c main_v1) ∗ (((c : Thread nD τ).loc main_v2) ↦{fullShare} V m c main_v2))
    ⊢ iprop((((c : Thread nD τ).loc main_v1) ↦{fullShare.left} V m c main_v1) ∗ (((c : Thread nD τ).loc main_v1) ↦{fullShare.right} V m c main_v1)
    ∗ (((c : Thread nD τ).loc main_v2) ↦{fullShare} V m c main_v2))
  iintro ⟨H1, H2⟩
  ihave H1 := (pointsTo_share (PosShare.mem_left_op_right fullShare)).1 $$ H1
  icases H1 with ⟨Ha, Hb⟩
  isplitl [Ha]; · iexact Ha
  isplitl [Hb]; · iexact Hb
  iexact H2

/-! ## The run -/

set_option backward.isDefEq.respectTransparency.types false in
/-- From any memory with zero counters every weakly fair execution of @main terminates, and every final state has the
    windows' arrays at what the write-backs leave (the padded array as the region found it, the result array its entry
    contents overwritten tile by tile) and every other unscoped buffer — the two node arrays among them — as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => body_obligation m c)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- The node arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.Kernel.Hand

end
-- ==== Proof.FrameIdeal.lean ====
/-
  The run of the idealized kernel's @main, and what its result array holds afterwards.

  @main concatenates the two node arrays along the node axis (5000 + 96 = 5096 nodes per batch), pads the node axis
  with 24 zero rows to 5120, and hands the padded array TWICE to one kernel region over a 4 x 4 x 4 grid: at the point
  (b, i, j) the first window reads rows 1280 i .. 1280 i + 1279 of batch b, the second rows 1280 j .. 1280 j + 1279, and
  the body stores one 1280 x 1280 tile of the result, which is written back to rows 1280 i .., columns 1280 j .. of
  batch b of a 4 x 5096 x 5096 array — the last tile on either axis overhangs the array by 24 and is cut there.

  Both input windows sit on ONE array, so the array's points-to is split in two halves, one per window; the output
  window is the only writer of its array. What the body leaves in the output tile is named through the body's one
  payload; nothing else about the arithmetic is needed for the run.
-/
import proofs.«171163_j54829552501064_2_alg».proof.Proof.Gen.KernelIdeal.Launch
import proofs.«171163_j54829552501064_2_alg».proof.Proof.Gen.KernelIdeal.Skeleton
import proofs.«171163_j54829552501064_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: after the concatenation, the zero constant, its conversion and the
    padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those two lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the first node array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation writes the second node array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: unfetched, the block index
    has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The offsets of every access of the body are zero. -/
theorem hz3 : (![0, 0, 0] : Fin 3 → Nat) = fun _ => 0 := funext fun a => by fin_cases a <;> rfl

/-- What the body leaves in the output tile: its one payload of the two input blocks. -/
def tile (i : grid0.Coords) (x0 x1 : Vec F S1x1280x64 .f32) : Vec F S1x1280x1280 .f32 := k0_pay1 i x0 x1

set_option maxHeartbeats 1000000 in
/-- The body on whole staging memrefs: two whole loads, a dead whole load of the output tile, one whole store. -/
theorem sound_kernel (c : Dev nD) (E : Set ℕ) (i : grid0.Coords) (arg3 : Memref sig .tc .vmem S1x1280x64 .f32) (harg3 : arg3.IsWhole)
    (arg4 : Memref sig .tc .vmem S1x1280x64 .f32) (harg4 : arg4.IsWhole) (arg5 : Memref sig .tc .vmem S1x1280x1280 .f32) (harg5 : arg5.IsWhole)
    (x0 x1 : Vec F S1x1280x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tile i x0 x1)) -∗ K ⟨⟩))
      ⊢ wp frame (wpE (defs₀ (F := F)) Variants.none c none) E (cc0__stgraph_kernel i arg3 harg3 arg4 harg4 arg5 harg5) K := by
  simp only [cc0__stgraph_kernel_eq_skeleton]; unfold cc0__stgraph_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz3 inb_S1x1280x1280_S1x1280x1280_0_0_0 y⟩),
    View.canon_unit_zero hz3, View.readAt_eq_ld, View.readAt_eq_ld, View.ld_unit_zero hz3, View.ld_unit_zero hz3]
  rfl

/-! ## The proof data -/

/-- The arrays as the region finds them; after the body at point `t` each input's buffer still at its block and the
    output's at the tile of the two blocks; the padded array's points-to split in two halves, one per input window;
    no invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = tile (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after0_0]; iexact H0
  isplitl [H1]; · rw [after0_1]; iexact H1
  iexists (tile (grid0.coords t) (iblk m c 0 t) (iblk m c 1 t))
  rw [after0_2, Window.fill_cut]
  iexact H2

/-! ## The padded array's points-to, split between the two windows that read it -/

theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show (Finset.univ.image (Pipeline.arrRef spec0)) = {main_v1, main_v2} from by decide]
  rw [BI.bigSep_insert (by decide), BI.bigSep_singleton, bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  rw [e0, e2]
  show iprop((((c : Thread nD τ).loc main_v1) ↦{fullShare} V m c main_v1) ∗ (((c : Thread nD τ).loc main_v2) ↦{fullShare} V m c main_v2))
    ⊢ iprop((((c : Thread nD τ).loc main_v1) ↦{fullShare.left} V m c main_v1) ∗ (((c : Thread nD τ).loc main_v1) ↦{fullShare.right} V m c main_v1)
    ∗ (((c : Thread nD τ).loc main_v2) ↦{fullShare} V m c main_v2))
  iintro ⟨H1, H2⟩
  ihave H1 := (pointsTo_share (PosShare.mem_left_op_right fullShare)).1 $$ H1
  icases H1 with ⟨Ha, Hb⟩
  isplitl [Ha]; · iexact Ha
  isplitl [Hb]; · iexact Hb
  iexact H2

/-! ## The run -/

set_option backward.isDefEq.respectTransparency.types false in
/-- From any memory with zero counters every weakly fair execution of @main terminates, and every final state has the
    windows' arrays at what the write-backs leave (the padded array as the region found it, the result array its entry
    contents overwritten tile by tile) and every other unscoped buffer — the two node arrays among them — as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => body_obligation m c)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- The node arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.KernelIdeal.Hand

end
-- ==== Proof.LibEyeBit.lean ====
/-
  The identity matrix's entry built from 32-bit words, and a column spread over the columns.

  Programs build an identity matrix by comparing a row number with a column number as 32-bit words and converting the resulting
  bit to a float. For numbers below 2^32 the words are equal exactly when the numbers are, so on the extended reals the converted
  bit is 1 on the diagonal and 0 off it — whether the bit is read unsigned directly, or first widened to 32 bits without sign and
  then read signed.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibEyeBit

open Idealize.ShloMosaic Idealize.ShloMosaic.ValueIdx

/-- The identity matrix's entry at row `r`, column `s`. -/
def eye (r s : Nat) : EReal := if r = s then 1 else 0

/-- Equal words compare to the bit one. -/
theorem cmpi_eq_of_eq {a b : BitVec 32} (h : a = b) : IntOp.cmpi .eq a b = 1#1 := by
  subst h; simp [IntOp.cmpi]

/-- Different words compare to the bit zero. -/
theorem cmpi_eq_of_ne {a b : BitVec 32} (h : a ≠ b) : IntOp.cmpi .eq a b = 0#1 := by
  have hb : (a == b) = false := beq_eq_false_iff_ne.mpr h
  simp [IntOp.cmpi, hb]

/-- Two numbers below 2^32 are equal iff their words are. -/
theorem ofNat_eq_iff {n k : Nat} (hn : n < 2 ^ 32) (hk : k < 2 ^ 32) : BitVec.ofNat 32 n = BitVec.ofNat 32 k ↔ n = k := by
  constructor
  · intro h
    have := congrArg BitVec.toNat h
    simp only [BitVec.toNat_ofNat] at this
    rwa [Nat.mod_eq_of_lt hn, Nat.mod_eq_of_lt hk] at this
  · rintro rfl; rfl

/-- A number's word plus the zero word is the number's word. -/
theorem plain_word (r : Nat) : IntOp.addi (BitVec.ofNat 32 r) 0#32 = BitVec.ofNat 32 r := by
  simp [IntOp.addi]

/-- The comparison bit of two numbers' words, read unsigned and converted, is the identity's entry. -/
theorem eye_of_uitofp {r s : Nat} (hr : r < 2 ^ 32) (hs : s < 2 ^ 32) :
    FloatOps.uitofp (F := Ideal) .f32 (IntOp.cmpi .eq (BitVec.ofNat 32 r) (BitVec.ofNat 32 s)) = eye r s := by
  unfold eye
  by_cases h : r = s
  · rw [if_pos h, cmpi_eq_of_eq ((ofNat_eq_iff hr hs).mpr h)]
    show (((1#1 : BitVec 1).toNat : ℝ) : EReal) = 1
    simp
  · rw [if_neg h, cmpi_eq_of_ne (fun e => h ((ofNat_eq_iff hr hs).mp e))]
    show (((0#1 : BitVec 1).toNat : ℝ) : EReal) = 0
    simp

/-- The same bit widened to 32 bits without sign and converted signed is the identity's entry too. -/
theorem eye_of_sitofp {r s : Nat} (hr : r < 2 ^ 32) (hs : s < 2 ^ 32) :
    FloatOps.sitofp (F := Ideal) .f32 ((IntOp.cmpi .eq (BitVec.ofNat 32 r) (BitVec.ofNat 32 s)).setWidth 32) = eye r s := by
  unfold eye
  by_cases h : r = s
  · rw [if_pos h, cmpi_eq_of_eq ((ofNat_eq_iff hr hs).mpr h)]
    show (((((1#1 : BitVec 1).setWidth 32).toInt : ℤ) : ℝ) : EReal) = 1
    have : ((1#1 : BitVec 1).setWidth 32).toInt = 1 := by decide
    rw [this]; simp
  · rw [if_neg h, cmpi_eq_of_ne (fun e => h ((ofNat_eq_iff hr hs).mp e))]
    show (((((0#1 : BitVec 1).setWidth 32).toInt : ℤ) : ℝ) : EReal) = 0
    have : ((0#1 : BitVec 1).setWidth 32).toInt = 0 := by decide
    rw [this]; simp

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibEyeBit

end
-- ==== Proof.GramSpec.lean ====
/-
  The function both programs compute, on the extended reals.

  For a batch of node embeddings `E` (4 batches, 5096 nodes, 64 features) the result at (b, r, s) is

      tanh (max (∑ k, E (b, r, k) · E (b, s, k)) 0 + [r = s])

  — the Gram matrix of batch `b`, clamped below at zero, plus the identity matrix, through tanh. The kernel spells a row (or
  column) number as an offset inside a 1280-wide tile plus 1280 times the tile's number, in 32-bit words; with at most 4 tiles
  the number stays below 5120 and the word arithmetic does not wrap.
-/
import proofs.«171163_j54829552501064_2_alg».proof.Proof.LibEyeBit

noncomputable section

open scoped BigOperators

namespace Cert.GramSpec

open Idealize.ShloMosaic Idealize.ShloMosaic.ValueIdx Cert.LibEyeBit

/-- The node embeddings' shape and the result's. -/
abbrev Nodes : Shape := ⟨3, ![4, 5096, 64]⟩
abbrev Adj : Shape := ⟨3, ![4, 5096, 5096]⟩

/-- The result at an index, from the node embeddings. -/
def adj (E : Nodes.Idx → EReal) (i : Adj.Idx) : EReal :=
  Ideal.tanh (max (∑ k : Fin 64, E (ix3 (n0 := 4) (n1 := 5096) (n2 := 64) (i 0) (i 1) k) * E (ix3 (n0 := 4) (n1 := 5096) (n2 := 64) (i 0) (i 2) k)) 0
    + eye (i 1).val (i 2).val)

/-- The kernel's spelling of a row (or column) number: the offset `p` inside tile `I`, plus `I` times the tile's width. -/
theorem tile_word (I p : Nat) (hI : I < 4) (hp : p < 1280) :
    IntOp.addi (BitVec.ofNat 32 p) (Scalar.muli (BitVec.ofNat 32 I) 1280#32) = BitVec.ofNat 32 (1280 * I + p) := by
  apply BitVec.eq_of_toNat_eq
  simp only [IntOp.addi, Scalar.muli, IntOp.muli, BitVec.toNat_add, BitVec.toNat_mul, BitVec.toNat_ofNat]
  omega

end Cert.GramSpec

end
-- ==== Proof.TileEntry.lean ====
/-
  One entry of the tile the body stores.

  At the grid point (b, I, J) the body holds rows 1280 I … of the padded embeddings in `x0` and rows 1280 J … in `x1`, both as
  1 × 1280 × 64 blocks. The entry (p, q) of the stored 1 × 1280 × 1280 tile is

      tanh (max (∑ k, x0 (0, p, k) · x1 (0, q, k)) 0 + [1280 I + p = 1280 J + q])

  : the matrix unit's product into a zero accumulator is the plain sum of products on the extended reals, and the diagonal
  bit is the comparison of the two global numbers, computed in words from two thin index vectors.
-/
import proofs.«171163_j54829552501064_2_alg».proof.Proof.Gen.KernelIdeal.Skeleton
import proofs.«171163_j54829552501064_2_alg».proof.Proof.GramSpec

noncomputable section

open scoped BigOperators

namespace Cert.KernelIdeal.TileEntry

open Cert.KernelIdeal Cert.KernelIdeal.Gen Cert.GramSpec Cert.LibEyeBit
open Idealize.ShloMosaic Idealize.ShloMosaic.ValueIdx

/-! ## The product of a 1280 × 64 block with the transpose of another -/

theorem lhs_0 (j : S1280x1280.Idx) (k : (dot_S1280x64_S1280x64_S1280x1280_1_1_0_0_n_n).contr.Idx) :
    ((dot_S1280x64_S1280x64_S1280x1280_1_1_0_0_n_n).lhsIdx j k 0).val = (j 0).val := by
  unfold DotDims.lhsIdx
  rw [dif_neg (show ¬(0 : Fin S1280x64.rank) ∈ (dot_S1280x64_S1280x64_S1280x1280_1_1_0_0_n_n).lhsBatch by decide),
    dif_pos (show (0 : Fin S1280x64.rank) ∈ (dot_S1280x64_S1280x64_S1280x1280_1_1_0_0_n_n).lhsNonContracting by decide)]
  rfl
theorem rhs_0 (j : S1280x1280.Idx) (k : (dot_S1280x64_S1280x64_S1280x1280_1_1_0_0_n_n).contr.Idx) :
    ((dot_S1280x64_S1280x64_S1280x1280_1_1_0_0_n_n).rhsIdx j k 0).val = (j 1).val := by
  unfold DotDims.rhsIdx
  rw [dif_neg (show ¬(0 : Fin S1280x64.rank) ∈ (dot_S1280x64_S1280x64_S1280x1280_1_1_0_0_n_n).rhsBatch by decide),
    dif_pos (show (0 : Fin S1280x64.rank) ∈ (dot_S1280x64_S1280x64_S1280x1280_1_1_0_0_n_n).rhsNonContracting by decide)]
  rfl

/-- The matrix unit's product into the zero accumulator, at (p, q): the sum over the 64 features of row `p` of the left block
    times row `q` of the right block. -/
theorem gram_entry (v1 v3 : FVec Ideal S1280x64 .f32) (p q : Fin 1280) :
    matmul (dot_S1280x64_S1280x64_S1280x1280_1_1_0_0_n_n) (some .fp32) v1 v3 (constant S1280x1280 .f32 0x00000000#32) (ix2 p q)
      = ∑ k : Fin 64, v1 (ix2 p k) * v3 (ix2 q k) := by
  show FloatOps.matmul _ _ v1 v3 (constant S1280x1280 .f32 0x00000000#32) (ix2 p q) = _
  rw [Ideal.matmul_constant_zero_apply,
    ← Equiv.sum_comp (ValueIdx.contrEquiv1 (dot_S1280x64_S1280x64_S1280x1280_1_1_0_0_n_n) 64 rfl rfl).symm]
  refine Finset.sum_congr rfl fun k _ => ?_
  have hk := ValueIdx.contrEquiv1_symm_val (dot_S1280x64_S1280x64_S1280x1280_1_1_0_0_n_n) 64 rfl rfl k
  have el : (dot_S1280x64_S1280x64_S1280x1280_1_1_0_0_n_n).lhsIdx (ix2 p q)
      ((ValueIdx.contrEquiv1 (dot_S1280x64_S1280x64_S1280x1280_1_1_0_0_n_n) 64 rfl rfl).symm k) = ix2 p k := funext fun a => Fin.ext (by
    match a with
    | ⟨0, _⟩ => exact lhs_0 _ _
    | ⟨1, _⟩ => exact ((dot_S1280x64_S1280x64_S1280x1280_1_1_0_0_n_n).lhsIdx_val_of_single rfl _ _).trans hk)
  have er : (dot_S1280x64_S1280x64_S1280x1280_1_1_0_0_n_n).rhsIdx (ix2 p q)
      ((ValueIdx.contrEquiv1 (dot_S1280x64_S1280x64_S1280x1280_1_1_0_0_n_n) 64 rfl rfl).symm k) = ix2 q k := funext fun a => Fin.ext (by
    match a with
    | ⟨0, _⟩ => exact rhs_0 _ _
    | ⟨1, _⟩ => exact ((dot_S1280x64_S1280x64_S1280x1280_1_1_0_0_n_n).rhsIdx_val_of_single rfl _ _).trans hk)
  rw [el, er]

/-! ## The diagonal bit -/

/-- A column of row numbers and a row of column numbers, each spelt "offset in the tile + 1280 · tile number" in 32-bit words,
    spread over the tile, compared, and the bit converted: the identity matrix's entry at the two global numbers. -/
theorem eye_bit (I J : Nat) (hI : I < 4) (hJ : J < 4) (p q : Fin 1280)
    (c1 : IVec S1280x1 32) (c2 : IVec S1x1280 32) (hb1 : S1280x1.Broadcasts S1280x1280) (hb2 : S1x1280.Broadcasts S1280x1280) (hlt : 1 < 32)
    (h1 : ∀ p : Fin 1280, c1 (ix2 p (0 : Fin 1)) = IntOp.addi (BitVec.ofNat 32 p.val) (Scalar.muli (BitVec.ofNat 32 I) 1280#32))
    (h2 : ∀ q : Fin 1280, c2 (ix2 (0 : Fin 1) q) = IntOp.addi (BitVec.ofNat 32 q.val) (Scalar.muli (BitVec.ofNat 32 J) 1280#32)) :
    sitofp (F := Ideal) .f32 (extui 32 (cmpi .eq (broadcastTo S1280x1280 c1 hb1) (broadcastTo S1280x1280 c2 hb2)) hlt) (ix2 p q)
      = eye (1280 * I + p.val) (1280 * J + q.val) := by
  show FloatOps.sitofp (F := Ideal) .f32
    ((IntOp.cmpi .eq (broadcastTo S1280x1280 c1 hb1 (ix2 p q)) (broadcastTo S1280x1280 c2 hb2 (ix2 p q))).setWidth 32) = _
  rw [broadcastTo_a1_ab_apply c1 hb1 p q, broadcastTo_1b_ab_apply c2 hb2 p q, h1, h2, tile_word _ _ hI p.isLt, tile_word _ _ hJ q.isLt]
  exact eye_of_sitofp (by have := p.isLt; omega) (by have := q.isLt; omega)

/-! ## The payload at an entry -/

theorem tile_entry (i : grid0.Coords) (x0 x1 : Vec Ideal S1x1280x64 .f32) (u : Fin 1) (p q : Fin 1280) :
    k0_pay1 (F := Ideal) i x0 x1 (ix3 u p q)
      = Ideal.tanh (max (∑ k : Fin 64, x0 (ix3 (0 : Fin 1) p k) * x1 (ix3 (0 : Fin 1) q k)) 0
          + eye (1280 * (i 1).val + p.val) (1280 * (i 2).val + q.val)) := by
  unfold k0_pay1
  dsimp only
  refine (shapeCast_ab_1ab_apply _ _ u p q).trans ?_
  refine congrArg Ideal.tanh ?_
  refine congrArg₂ (fun a b : EReal => a + b) ?_ ?_
  · refine congrArg₂ (fun a b : EReal => max a b) ?_ ?_
    · refine (gram_entry _ _ p q).trans ?_
      refine Finset.sum_congr rfl fun k _ => ?_
      rw [shapeCast_1ab_ab_apply, shapeCast_1ab_ab_apply]
    · exact Ideal.ofBits_zero_f32
  · refine eye_bit (i 1).val (i 2).val (i 1).isLt (i 2).isLt p q _ _ _ _ _ (fun p => ?_) (fun q => ?_)
    · show IntOp.addi (iota .tc S1280x1 32 [0] iota_S1280x1_d0_w32 (ix2 p (0 : Fin 1))) _ = _
      rw [iota_single_apply]; rfl
    · show IntOp.addi (iota .tc S1x1280 32 [1] iota_S1x1280_d1_w32 (ix2 (0 : Fin 1) q)) _ = _
      rw [iota_single_apply]; rfl

end Cert.KernelIdeal.TileEntry

end
-- ==== Proof.KernelValue.lean ====
/-
  What the idealized kernel's result array holds after the run: the Gram function of the concatenated node embeddings.

  The tile written back at the grid point (b, I, J) is cut at the array's end: on the row axis it has 1280 rows, or 1256 when
  I = 3 (5096 = 3 · 1280 + 1256), and likewise on the column axis. Inside the cut tile the entry (p, q) sits at row
  1280 I + p < 5096 and column 1280 J + q < 5096 of batch b, and the rows of the padded embeddings it was computed from are
  rows of the unpadded embeddings — the 24 zero rows of padding only ever feed entries that are cut away. So every tile
  written back is its block of ONE function of the concatenated embeddings, and the 64 cut tiles cover the array.
-/
import proofs.«171163_j54829552501064_2_alg».proof.Proof.FrameIdeal
import proofs.«171163_j54829552501064_2_alg».proof.Proof.TileEntry
import Idealize.ShloMosaic.Lib.KernelVsHost
import Idealize.ShloMosaic.Lib.StableHlo.Run

set_option maxRecDepth 16384

noncomputable section

open scoped BigOperators

namespace Cert.KernelIdeal.GramValue

open Cert.KernelIdeal Cert.KernelIdeal.Gen Cert.KernelIdeal.Hand Cert.KernelIdeal.TileEntry Cert.GramSpec Cert.LibEyeBit
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The padded embeddings -/

/-- The two node arrays joined along the node axis. -/
def nodes (c : Dev nD) : S4x5096x64.Idx → EReal :=
  concatenate S4x5096x64 1 [⟨S4x5000x64, m ((c : Thread nD τ).loc main_arg0)⟩, ⟨S4x96x64, m ((c : Thread nD τ).loc main_arg1)⟩]
    Facts₀.concatenates_S4x5000x64_S4x96x64_S4x5096x64_d1

/-- The array both input windows read is the joined array with 24 rows of the zero word's conversion behind. -/
theorem V_main_v1 (c : Dev nD) : (V m c main_v1 : S4x5120x64.Idx → EReal)
    = pad S4x5120x64 ![0, 0, 0] ![0, 24, 0] ![0, 0, 0] (nodes m c) (sitofp (F := Ideal) .f32 (constantI S_ 32 0#32))
        Facts₀.pads_S4x5096x64_S4x5120x64_000_0240_000 Facts₀.h_S_ := by
  dsimp only [V]
  simp only [hostOps0, hostOps0_1, List.flatten_cons, List.flatten_nil, List.append_nil, List.cons_append, List.nil_append]
  after_results
  rfl

/-- A row of the padded array below 5096 is that row of the joined array. -/
theorem padded_inside (c : Dev nD) (j : S4x5120x64.Idx) (k : S4x5096x64.Idx) (h : ∀ a : Fin 3, (j a).val = (k a).val) :
    (V m c main_v1 : S4x5120x64.Idx → EReal) j = nodes m c k := by
  rw [V_main_v1]
  refine pad_apply_of_inside _ _ _ _ _ _ _ j k fun a => ?_
  match a with
  | ⟨0, _⟩ => show (j 0).val = 0 + (k 0).val * (0 + 1); have := h 0; omega
  | ⟨1, _⟩ => show (j 1).val = 0 + (k 1).val * (0 + 1); have := h 1; omega
  | ⟨2, _⟩ => show (j 2).val = 0 + (k 2).val * (0 + 1); have := h 2; omega

/-! ## The index maps and the cut tile sizes, decided over the 64 points -/

theorem idx_facts : ∀ t : Fin cfg0.N,
    win0_2.index t (0 : Fin 3) = (grid0.coords t 0).val ∧ win0_2.index t (1 : Fin 3) = (grid0.coords t 1).val
    ∧ win0_2.index t (2 : Fin 3) = (grid0.coords t 2).val
    ∧ win0_0.index t (0 : Fin 3) = (grid0.coords t 0).val ∧ win0_0.index t (1 : Fin 3) = (grid0.coords t 1).val
    ∧ win0_0.index t (2 : Fin 3) = 0
    ∧ win0_1.index t (0 : Fin 3) = (grid0.coords t 0).val ∧ win0_1.index t (1 : Fin 3) = (grid0.coords t 2).val
    ∧ win0_1.index t (2 : Fin 3) = 0
    ∧ win0_2.xsize (grid0.coords t) (0 : Fin 3) = 1
    ∧ win0_2.xsize (grid0.coords t) (1 : Fin 3) = (if (grid0.coords t 1).val = 3 then 1256 else 1280)
    ∧ win0_2.xsize (grid0.coords t) (2 : Fin 3) = (if (grid0.coords t 2).val = 3 then 1256 else 1280) :=
  (by decide +kernel : ∀ t : Fin grid0.N, _)

/-- Every triple of coordinates is some point's. -/
theorem coords_onto : ∀ (b I J : Fin 4), ∃ t : Fin cfg0.N,
    (grid0.coords t 0).val = b.val ∧ (grid0.coords t 1).val = I.val ∧ (grid0.coords t 2).val = J.val :=
  (by decide +kernel : ∀ (b I J : Fin 4), ∃ t : Fin grid0.N,
    (grid0.coords t 0).val = b.val ∧ (grid0.coords t 1).val = I.val ∧ (grid0.coords t 2).val = J.val)

/-! ## What a point writes back -/

/-- The tile written back at point `t`, cut at the array's end, is block `t` of the Gram function of the joined embeddings. -/
theorem flushed_eq (c : Dev nD) (t : Fin cfg0.N) :
    (dats m 0 c).flushed 2 t = ((cfg0.win 2).blk t).view.read (Elt Ideal) (adj (nodes m c)) := by
  show (cfg0.win 2).cut (grid0.coords t) ((dats m 0 c).after 2 t) = _
  rw [after0_2]
  unfold tile
  obtain ⟨i0, i1, i2, a0, a1, a2, b0, b1, b2, s0, s1, s2⟩ := idx_facts t
  funext y
  have hy0 : (y 0).val < win0_2.xsize (grid0.coords t) (0 : Fin 3) := (y 0).isLt
  have hy1 : (y 1).val < win0_2.xsize (grid0.coords t) (1 : Fin 3) := (y 1).isLt
  have hy2 : (y 2).val < win0_2.xsize (grid0.coords t) (2 : Fin 3) := (y 2).isLt
  have hI : (grid0.coords t 1).val < 4 := (grid0.coords t 1).isLt
  have hJ : (grid0.coords t 2).val < 4 := (grid0.coords t 2).isLt
  have hb : (grid0.coords t 0).val < 4 := (grid0.coords t 0).isLt
  rw [s0] at hy0; rw [s1] at hy1; rw [s2] at hy2
  have hr : 1280 * (grid0.coords t 1).val + (y 1).val < 5096 := by split at hy1 <;> omega
  have hs : 1280 * (grid0.coords t 2).val + (y 2).val < 5096 := by split at hy2 <;> omega
  show k0_pay1 (F := Ideal) (grid0.coords t) (iblk m c 0 t) (iblk m c 1 t) ((cfg0.win 2).xinj (grid0.coords t) y)
    = adj (nodes m c) (((cfg0.win 2).blk t).view.emb y)
  refine (congrArg (k0_pay1 (F := Ideal) (grid0.coords t) (iblk m c 0 t) (iblk m c 1 t))
    (eq_ix3 ((cfg0.win 2).xinj (grid0.coords t) y))).trans ((tile_entry _ _ _ _ _ _).trans ?_)
  unfold adj
  -- the array index under the tile's entry
  have e0 : ((((cfg0.win 2).blk t).view.emb y) 0).val = (grid0.coords t 0).val := by
    show win0_2.index t (0 : Fin 3) * 1 + 1 * (y 0).val = _; omega
  have e1 : ((((cfg0.win 2).blk t).view.emb y) 1).val = 1280 * (grid0.coords t 1).val + (y 1).val := by
    show win0_2.index t (1 : Fin 3) * 1280 + 1 * (y 1).val = _; omega
  have e2 : ((((cfg0.win 2).blk t).view.emb y) 2).val = 1280 * (grid0.coords t 2).val + (y 2).val := by
    show win0_2.index t (2 : Fin 3) * 1280 + 1 * (y 2).val = _; omega
  refine congrArg Ideal.tanh (congrArg₂ (fun a b : EReal => a + b) (congrArg₂ (fun a b : EReal => max a b) ?_ rfl) ?_)
  · refine Finset.sum_congr rfl fun k _ => ?_
    refine congrArg₂ (fun a b : EReal => a * b) ?_ ?_
    · show (V m c main_v1 : S4x5120x64.Idx → EReal) (((cfg0.win 0).blk t).view.emb _) = _
      refine padded_inside m c _ _ fun a => ?_
      match a with
      | ⟨0, _⟩ => show win0_0.index t (0 : Fin 3) * 1 + 1 * 0 = ((((cfg0.win 2).blk t).view.emb y) 0).val; omega
      | ⟨1, _⟩ => show win0_0.index t (1 : Fin 3) * 1280 + 1 * (y 1).val = ((((cfg0.win 2).blk t).view.emb y) 1).val; omega
      | ⟨2, _⟩ => show win0_0.index t (2 : Fin 3) * 64 + 1 * k.val = k.val; omega
    · show (V m c main_v1 : S4x5120x64.Idx → EReal) (((cfg0.win 1).blk t).view.emb _) = _
      refine padded_inside m c _ _ fun a => ?_
      match a with
      | ⟨0, _⟩ => show win0_1.index t (0 : Fin 3) * 1 + 1 * 0 = ((((cfg0.win 2).blk t).view.emb y) 0).val; omega
      | ⟨1, _⟩ => show win0_1.index t (1 : Fin 3) * 1280 + 1 * (y 2).val = ((((cfg0.win 2).blk t).view.emb y) 2).val; omega
      | ⟨2, _⟩ => show win0_1.index t (2 : Fin 3) * 64 + 1 * k.val = k.val; omega
  · show eye (1280 * (grid0.coords t 1).val + (y 1).val) (1280 * (grid0.coords t 2).val + (y 2).val) = eye _ _
    rw [e1, e2]

/-! ## The tiles cover the array -/

/-- An index of the array is in point `t`'s cut tile iff each coordinate is in the tile's range on its axis. -/
theorem mem_blk (t : Fin cfg0.N) (i : S4x5096x5096.Idx) :
    i ∈ ((cfg0.win 2).blk t).view.set ↔ ∀ a : Fin 3, win0_2.index t a * S1x1280x1280.size a ≤ (i a).val
      ∧ (i a).val < win0_2.index t a * S1x1280x1280.size a + win0_2.xsize (grid0.coords t) a := by
  show i ∈ ((View.whole main_v2).slice (win0_2.rect t)).set ↔ _
  rw [View.set_slice_whole, Rect.mem_set_unit]
  exact Iff.rfl

/-- Every index is in the tile of the point (batch, row / 1280, column / 1280). -/
theorem cover (i : S4x5096x5096.Idx) : ∃ t : Fin cfg0.N, (cfg0.win 2).flush t = true ∧ i ∈ ((cfg0.win 2).blk t).view.set := by
  have h0 : (i 0).val < 4 := (i 0).isLt
  have h1 : (i 1).val < 5096 := (i 1).isLt
  have h2 : (i 2).val < 5096 := (i 2).isLt
  obtain ⟨t, c0, c1, c2⟩ := coords_onto ⟨(i 0).val, h0⟩ ⟨(i 1).val / 1280, by omega⟩ ⟨(i 2).val / 1280, by omega⟩
  have c0' : (grid0.coords t 0).val = (i 0).val := c0
  have c1' : (grid0.coords t 1).val = (i 1).val / 1280 := c1
  have c2' : (grid0.coords t 2).val = (i 2).val / 1280 := c2
  obtain ⟨i0, i1, i2, -, -, -, -, -, -, s0, s1, s2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + win0_2.xsize (grid0.coords t) (0 : Fin 3)
    rw [s0]; omega
  | ⟨1, _⟩ =>
    show win0_2.index t (1 : Fin 3) * 1280 ≤ (i 1).val ∧ (i 1).val < win0_2.index t (1 : Fin 3) * 1280 + win0_2.xsize (grid0.coords t) (1 : Fin 3)
    rw [s1]; split <;> omega
  | ⟨2, _⟩ =>
    show win0_2.index t (2 : Fin 3) * 1280 ≤ (i 2).val ∧ (i 2).val < win0_2.index t (2 : Fin 3) * 1280 + win0_2.xsize (grid0.coords t) (2 : Fin 3)
    rw [s2]; split <;> omega

/-! ## The array after the run -/

theorem final (c : Dev nD) : (dats m 0 c).arrAt 2 cfg0.N = adj (nodes m c) :=
  (dats m 0 c).arrAt_eq_of_cover 2 (adj (nodes m c)) (fun t _ => flushed_eq m c t) cover

/-- The run, read: the result array at the Gram function of the joined embeddings, the node arrays unchanged. -/
theorem run : θ_run defs (onTc (τ := τ) (main (F := Ideal))) ⟨m, fun _ => 0, ρ⟩ fun r => ∀ c : Dev nD,
      r.2.mem ((c : Thread nD τ).loc main_v2) = adj (nodes m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.GramValue

end
-- ==== Proof.RefValue.lean ====
/-
  The reference's result is the Gram function of the concatenated node embeddings.

  Read one operation at a time, the reference's result at (b, r, s) is tanh of: the host's batched contraction of the joined
  embeddings with themselves over the feature axis (on the extended reals the plain sum of products), clamped below at the zero
  constant, plus the identity matrix built by comparing a row-number array with a column-number array as words and converting
  the bit, broadcast over the batch.
-/
import proofs.«171163_j54829552501064_2_alg».proof.Proof.Gen.ReferenceIdeal.Read
import proofs.«171163_j54829552501064_2_alg».proof.Proof.GramSpec

noncomputable section

open scoped BigOperators

namespace Cert.ReferenceIdeal.GramValue

open Cert.ReferenceIdeal Cert.ReferenceIdeal.Gen Cert.ReferenceIdeal.Read Cert.GramSpec Cert.LibEyeBit
open Idealize.ShloMosaic Idealize.ShloMosaic.ValueIdx

theorem result_eq (x0 : (⟨S4x5000x64, .f32⟩ : BufTy).Contents (Elt Ideal)) (x1 : (⟨S4x96x64, .f32⟩ : BufTy).Contents (Elt Ideal)) :
    val_main_v12 (F := Ideal) x0 x1 = adj (val_main_v0 (F := Ideal) x0 x1) := by
  funext i
  have h1 : (i 1).val < 5096 := (i 1).isLt
  have h2 : (i 2).val < 5096 := (i 2).isLt
  rw [val_main_v12_apply, val_main_v11_apply, val_main_v2_apply, val_main_v1_apply, val_main_call0_v0_apply, val_main_call0_cst_apply,
    val_main_v10_apply, val_main_v9_apply, val_main_v8_apply, val_main_v7_apply, val_main_v6_apply, val_main_v3_apply, val_main_v5_apply,
    val_main_c_apply, val_main_v4_apply]
  unfold adj
  refine congrArg Ideal.tanh (congrArg₂ (fun a b : EReal => a + b) (congrArg₂ (fun a b : EReal => max a b) ?_ Ideal.ofBits_zero_f32) ?_)
  · refine Finset.sum_congr rfl fun k _ => ?_
    have el : lidx_main_v1 i k = ix3 (n0 := 4) (n1 := 5096) (n2 := 64) (i 0) (i 1) k :=
      funext fun a => by match a with | ⟨0, _⟩ => rfl | ⟨1, _⟩ => rfl | ⟨2, _⟩ => rfl
    have er : ridx_main_v1 i k = ix3 (n0 := 4) (n1 := 5096) (n2 := 64) (i 0) (i 2) k :=
      funext fun a => by match a with | ⟨0, _⟩ => rfl | ⟨1, _⟩ => rfl | ⟨2, _⟩ => rfl
    rw [el, er]
  · show FloatOps.uitofp (F := Ideal) .f32 (IntOp.cmpi .eq (IntOp.addi (BitVec.ofNat 32 (i 1).val) 0#32) (BitVec.ofNat 32 (i 2).val)) = eye (i 1).val (i 2).val
    rw [plain_word]
    exact eye_of_uitofp (by omega) (by omega)

end Cert.ReferenceIdeal.GramValue

end
-- ==== Proof.lean ====
/-
  The kernel computes, per batch, tanh (relu (E Eᵀ) + I) of the node embeddings E (the spatial and the temporal nodes joined
  along the node axis, 5096 nodes of 64 features), tile by tile: a 4 × 4 × 4 grid of 1280 × 1280 tiles over a result of
  5096 × 5096 per batch, the embeddings padded with 24 zero rows so that every tile reads whole 1280-row blocks, the last tile
  on each axis cut at the result's edge. The reference computes the same matrix in one piece.

  On the extended reals the two agree entry by entry with no condition on the inputs: an entry is tanh of the clamped sum of
  64 products plus the identity's entry, the same expression of the same embeddings on both sides — the tiling changes which
  block an embedding row is read from, not the row; the padding rows only feed entries beyond the result's edge, which are never
  written; and the identity's entry is the comparison of two numbers below 2^32 whichever way they are spelt in words.

  The three programs run to the end, fault nowhere and leave the node arrays as they were: the two kernels by the pipeline's
  launch theorem for input windows that share an array (the padded embeddings are handed to the kernel twice, each window
  holding half of the array's points-to), the reference by its operations one after another.
-/
import proofs.«171163_j54829552501064_2_alg».proof.Defs
import proofs.«171163_j54829552501064_2_alg».proof.Proof.Gen.Kernel
import proofs.«171163_j54829552501064_2_alg».proof.Proof.Gen.KernelIdeal
import proofs.«171163_j54829552501064_2_alg».proof.Proof.Gen.ReferenceIdeal
import proofs.«171163_j54829552501064_2_alg».proof.Proof.Gen.Pre_finite_inputs
import proofs.«171163_j54829552501064_2_alg».proof.Proof.Gen.ReferenceIdeal.Run
import proofs.«171163_j54829552501064_2_alg».proof.Proof.Gen.ReferenceIdeal.Read
import proofs.«171163_j54829552501064_2_alg».proof.Proof.FrameBits
import proofs.«171163_j54829552501064_2_alg».proof.Proof.KernelValue
import proofs.«171163_j54829552501064_2_alg».proof.Proof.RefValue

noncomputable section

namespace Cert.Proof

open Idealize.ShloMosaic Idealize.SL.Sem

/-- The kernel as printed runs and leaves the node arrays unchanged. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference runs and leaves the node arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with the Gram function of the joined embeddings in their result array. -/
theorem algebraic : Cert.algebraic_KernelIdeal_ReferenceIdeal := by
  intro m ρ m' ρ' _ hagree
  refine ⟨fun c => Cert.GramSpec.adj (Cert.KernelIdeal.GramValue.nodes m c), Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.GramValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
